-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S3200000 : Shape := ⟨1, ![3200000]⟩
abbrev S100000x16 : Shape := ⟨2, ![100000, 16]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S100000x16 : S_.BroadcastsInDim S100000x16 (![] : Fin 0 → Fin S100000x16.rank)
  reducesTo_S100000x16_S_d0_1 : S100000x16.ReducesTo [0, 1] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part2 {F : FTy → Type} [FloatOps F] (main_arg9 : FVec F S7 .f32) (main_v33 : IVec S_ 1) : IVec S_ 1 :=
  let main_v34 : FVec F S7 .f32 := Host.absf main_arg9
  let main_cst_12 : FVec F S_ .f32 := constant S_ .f32 0x7F800000#32
  let main_v35 : FVec F S7 .f32 := broadcastInDim S7 ![] bcast_S_S7 main_cst_12
  let main_v36 : IVec S7 1 := cmpf .olt main_v34 main_v35
  let main_c_13 : IVec S_ 1 := constantI S_ 1 1#1
  let main_v37 : IVec S_ 1 := (fun x v => Host.reduce IntOp.andi x v reducesTo_S7_S_d0 h_S_) main_v36 main_c_13
  let main_v38 : IVec S_ 1 := andi main_v33 main_v37
  main_v38

def fn_part1 {F : FTy → Type} [FloatOps F] (main_arg6 : FVec F S512x16 .f32) (main_arg7 : FVec F S16 .f32) (main_arg8 : FVec F S16x7 .f32) (main_arg9 : FVec F S7 .f32) (main_v13 : IVec S_ 1) (main_v16 : IVec S100000x16 1) : IVec S_ 1 :=
  let main_c_5 : IVec S_ 1 := constantI S_ 1 1#1
  let main_v17 : IVec S_ 1 := (fun x v => Host.reduce IntOp.andi x v reducesTo_S100000x16_S_d0_1 h_S_) main_v16 main_c_5
  let main_v18 : IVec S_ 1 := andi main_v13 main_v17
  let main_v19 : FVec F S512x16 .f32 := Host.absf main_arg6
  let main_cst_6 : FVec F S_ .f32 := constant S_ .f32 0x7F800000#32
  let main_v20 : FVec F S512x16 .f32 := broadcastInDim S512x16 ![] bcast_S_S512x16 main_cst_6
  let main_v21 : IVec S512x16 1 := cmpf .olt main_v19 main_v20
  let main_c_7 : IVec S_ 1 := constantI S_ 1 1#1
  let main_v22 : IVec S_ 1 := (fun x v => Host.reduce IntOp.andi x v reducesTo_S512x16_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x7 .f32 := Host.absf main_arg8
  let main_cst_10 : FVec F S_ .f32 := constant S_ .f32 0x7F800000#32
  let main_v30 : FVec F S16x7 .f32 := broadcastInDim S16x7 ![] bcast_S_S16x7 main_cst_10
  let main_v31 : IVec S16x7 1 := cmpf .olt main_v29 main_v30
  let main_c_11 : IVec S_ 1 := constantI S_ 1 1#1
  let main_v32 : IVec S_ 1 := (fun x v => Host.reduce IntOp.andi x v reducesTo_S16x7_S_d0_1 h_S_) main_v31 main_c_11
  let main_v33 : IVec S_ 1 := andi main_v28 main_v32
  fn_part2 (F := F) main_arg9 main_v33

def fn {F : FTy → Type} [FloatOps F] (main_arg0 : FVec F S100000x512 .f32) (main_arg1 : IVec S3200000 32) (main_arg2 : IVec S3200000 32) (main_arg3 : FVec F S3200000 .f32) (main_arg4 : FVec F S100000x512 .f32) (main_arg5 : FVec F S100000x16 .f32) (main_arg6 : FVec F S512x16 .f32) (main_arg7 : FVec F S16 .f32) (main_arg8 : FVec F S16x7 .f32) (main_arg9 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg3
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S100000x512 .f32 := Host.absf main_arg4
  let main_cst_2 : FVec F S_ .f32 := constant S_ .f32 0x7F800000#32
  let main_v10 : FVec F S100000x512 .f32 := broadcastInDim S100000x512 ![] bcast_S_S100000x512 main_cst_2
  let main_v11 : IVec S100000x512 1 := cmpf .olt main_v9 main_v10
  let main_c_3 : IVec S_ 1 := constantI S_ 1 1#1
  let main_v12 : IVec S_ 1 := (fun x v => Host.reduce IntOp.andi x v reducesTo_S100000x512_S_d0_1 h_S_) main_v11 main_c_3
  let main_v13 : IVec S_ 1 := andi main_v8 main_v12
  let main_v14 : FVec F S100000x16 .f32 := Host.absf main_arg5
  let main_cst_4 : FVec F S_ .f32 := constant S_ .f32 0x7F800000#32
  let main_v15 : FVec F S100000x16 .f32 := broadcastInDim S100000x16 ![] bcast_S_S100000x16 main_cst_4
  let main_v16 : IVec S100000x16 1 := cmpf .olt main_v14 main_v15
  fn_part1 (F := F) main_arg6 main_arg7 main_arg8 main_arg9 main_v13 main_v16
-- ==== Kernel.lean ====
abbrev S100000x512 : Shape := ⟨2, ![100000, 512]⟩
abbrev S3200000 : Shape := ⟨1, ![3200000]⟩
abbrev S100000x16 : Shape := ⟨2, ![100000, 16]⟩
abbrev S512x16 : Shape := ⟨2, ![512, 16]⟩
abbrev S16 : Shape := ⟨1, ![16]⟩
abbrev S16x7 : Shape := ⟨2, ![16, 7]⟩
abbrev S7 : Shape := ⟨1, ![7]⟩
abbrev S1x16 : Shape := ⟨2, ![1, 16]⟩
abbrev S2000x512 : Shape := ⟨2, ![2000, 512]⟩
abbrev S2000x16 : Shape := ⟨2, ![2000, 16]⟩
abbrev S_ : Shape := ⟨0, ![]⟩
abbrev S3200000x1 : Shape := ⟨2, ![3200000, 1]⟩
abbrev S3200000x16 : Shape := ⟨2, ![3200000, 16]⟩
abbrev S1x7 : Shape := ⟨2, ![1, 7]⟩
abbrev S100000x7 : Shape := ⟨2, ![100000, 7]⟩
abbrev S5000x16 : Shape := ⟨2, ![5000, 16]⟩
abbrev S5000x7 : Shape := ⟨2, ![5000, 7]⟩
abbrev S3200000x7 : Shape := ⟨2, ![3200000, 7]⟩

abbrev nBuf : Space → Nat
  | .hbm => 46
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S100000x512, .f32⟩
  | .hbm, ⟨5, _⟩ => ⟨S100000x16, .f32⟩
  | .hbm, ⟨6, _⟩ => ⟨S512x16, .f32⟩
  | .hbm, ⟨7, _⟩ => ⟨S16, .f32⟩
  | .hbm, ⟨8, _⟩ => ⟨S16x7, .f32⟩
  | .hbm, ⟨9, _⟩ => ⟨S7, .f32⟩
  | .hbm, ⟨10, _⟩ => ⟨S1x16, .f32⟩
  | .hbm, ⟨11, _⟩ => ⟨S100000x16, .f32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x16, .f32⟩
  | .hbm, ⟨21, _⟩ => ⟨S3200000x1, .f32⟩
  | .hbm, ⟨22, _⟩ => ⟨S3200000x16, .f32⟩
  | .hbm, ⟨23, _⟩ => ⟨S3200000x16, .f32⟩
  | .hbm, ⟨24, _⟩ => ⟨S_, .f32⟩
  | .hbm, ⟨25, _⟩ => ⟨S100000x16, .f32⟩
  | .hbm, ⟨26, _⟩ => ⟨S3200000x1, .i32⟩
  | .hbm, ⟨27, _⟩ => ⟨S100000x16, .f32⟩
  | .hbm, ⟨28, _⟩ => ⟨S1x7, .f32⟩
  | .hbm, ⟨29, _⟩ => ⟨S100000x7, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000x7, .f32⟩
  | .hbm, ⟨39, _⟩ => ⟨S3200000x1, .f32⟩
  | .hbm, ⟨40, _⟩ => ⟨S3200000x7, .f32⟩
  | .hbm, ⟨41, _⟩ => ⟨S3200000x7, .f32⟩
  | .hbm, ⟨42, _⟩ => ⟨S_, .f32⟩
  | .hbm, ⟨43, _⟩ => ⟨S100000x7, .f32⟩
  | .hbm, ⟨44, _⟩ => ⟨S3200000x1, .i32⟩
  | .hbm, ⟨45, _⟩ => ⟨S100000x7, .f32⟩
  | .local _ .vmem, ⟨0, _⟩ => ⟨S2000x512, .f32⟩
  | .local _ .vmem, ⟨1, _⟩ => ⟨S2000x512, .f32⟩
  | .local _ .vmem, ⟨2, _⟩ => ⟨S2000x512, .f32⟩
  | .local _ .vmem, ⟨3, _⟩ => ⟨S2000x512, .f32⟩
  | .local _ .vmem, ⟨4, _⟩ => ⟨S512x16, .f32⟩
  | .local _ .vmem, ⟨5, _⟩ => ⟨S1x16, .f32⟩
  | .local _ .vmem, ⟨6, _⟩ => ⟨S2000x16, .f32⟩
  | .local _ .vmem, ⟨7, _⟩ => ⟨S2000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S16x7, .f32⟩
  | .local _ .vmem, ⟨13, _⟩ => ⟨S1x7, .f32⟩
  | .local _ .vmem, ⟨14, _⟩ => ⟨S5000x7, .f32⟩
  | .local _ .vmem, ⟨15, _⟩ => ⟨S5000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x7 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x7 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S16_S1x16 : S16.ShapeCasts S1x16
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S7_S1x7 : S7.ShapeCasts S1x7
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S16x7_S16x7_0_0 : ∀ a, (![0, 0] : Fin 2 → Nat) a + S16x7.size a ≤ S16x7.size a
  h_S16x7 : 0 < S16x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S5000x7 : S1x7.Broadcasts S5000x7
  inb_S5000x7_S5000x7_0_0 : ∀ a, (![0, 0] : Fin 2 → Nat) a + S5000x7.size a ≤ S5000x7.size a
  h_S5000x7 : 0 < S5000x7.numel
  bcast_S3200000x1_S3200000x7_0_1 : S3200000x1.BroadcastsInDim S3200000x7 (![0, 1] : Fin 2 → Fin S3200000x7.rank)
  bcast_S_S100000x7 : S_.BroadcastsInDim S100000x7 (![] : Fin 0 → Fin S100000x7.rank)
  dot_S2000x512_S512x16_S2000x16_1_0_0_1_n_n_wf : DotDims.WF S2000x512 S512x16 S2000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x7_S5000x7_1_0_0_1_n_n_wf : DotDims.WF S5000x16 S16x7 S5000x7 [1] [0] [0] [1] [] []
  gather_S100000x7_S3200000x1_S3200000x7_1_0_n_n_0_1_17_wf : GatherDims.WF S100000x7 S3200000x1 S3200000x7 [1] [0] [] [0] [] 1 ![1, 7]
  scatter_S100000x7_S3200000x1_S3200000x7_1_0_0_1_wf : ScatterDims.WF S100000x7 S3200000x1 S3200000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S100000x512.size a
  hwx0_1 : ∀ i : grid0.Coords, EltTy.bits .f32 = 32 ∨ (Rect.block (s := S100000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S512x16.size a
  hwx0_2 : ∀ i : grid0.Coords, EltTy.bits .f32 = 32 ∨ (Rect.block (s := S512x16) S512x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x16.size a ≤ S100000x16.size a
  hwx0_4 : ∀ i : grid0.Coords, EltTy.bits .f32 = 32 ∨ (Rect.block (s := S100000x16) S2000x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x7.size a ≤ S16x7.size a
  hwx1_2 : ∀ i : grid1.Coords, EltTy.bits .f32 = 32 ∨ (Rect.block (s := S16x7) S16x7.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x7.size a ≤ S1x7.size a
  hwx1_3 : ∀ i : grid1.Coords, EltTy.bits .f32 = 32 ∨ (Rect.block (s := S1x7) S1x7.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x7.size a ≤ S100000x7.size a
  hwx1_4 : ∀ i : grid1.Coords, EltTy.bits .f32 = 32 ∨ (Rect.block (s := S100000x7) S5000x7.size (cc1_transform_4 i) (hinb1_4 i)).WholeWords (EltTy.packing .f32)

variable [Facts₀]

def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x7_S5000x7_1_0_0_1_n_n : DotDims S5000x16 S16x7 S5000x7 where
  lhsContracting := [1]
  rhsContracting := [0]
  lhsNonContracting := [0]
  rhsNonContracting := [1]
  lhsBatch := []
  rhsBatch := []
  wf := dot_S5000x16_S16x7_S5000x7_1_0_0_1_n_n_wf
def gather_S100000x7_S3200000x1_S3200000x7_1_0_n_n_0_1_17 : GatherDims S100000x7 S3200000x1 S3200000x7 where
  offsetDims := [1]
  collapsedSliceDims := [0]
  operandBatchingDims := []
  startIndicesBatchingDims := []
  startIndexMap := [0]
  indexVectorDim := 1
  sliceSizes := ![1, 7]
  wf := gather_S100000x7_S3200000x1_S3200000x7_1_0_n_n_0_1_17_wf
def scatter_S100000x7_S3200000x1_S3200000x7_1_0_0_1 : ScatterDims S100000x7 S3200000x1 S3200000x7 where
  updateWindowDims := [1]
  insertedWindowDims := [0]
  scatterDimsToOperandDims := [0]
  indexVectorDim := 1
  wf := scatter_S100000x7_S3200000x1_S3200000x7_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S512x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2000x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S16x7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x7.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S5000x7.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x512 : Shape := ⟨2, ![100000, 512]⟩
abbrev S3200000 : Shape := ⟨1, ![3200000]⟩
abbrev S100000x16 : Shape := ⟨2, ![100000, 16]⟩
abbrev S512x16 : Shape := ⟨2, ![512, 16]⟩
abbrev S16 : Shape := ⟨1, ![16]⟩
abbrev S16x7 : Shape := ⟨2, ![16, 7]⟩
abbrev S7 : Shape := ⟨1, ![7]⟩
abbrev S1x16 : Shape := ⟨2, ![1, 16]⟩
abbrev S_ : Shape := ⟨0, ![]⟩
abbrev S3200000x1 : Shape := ⟨2, ![3200000, 1]⟩
abbrev S3200000x16 : Shape := ⟨2, ![3200000, 16]⟩
abbrev S100000x7 : Shape := ⟨2, ![100000, 7]⟩
abbrev S1x7 : Shape := ⟨2, ![1, 7]⟩
abbrev S3200000x7 : Shape := ⟨2, ![3200000, 7]⟩

abbrev nBuf : Space → Nat
  | .hbm => 55
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S100000x512, .f32⟩
  | .hbm, ⟨5, _⟩ => ⟨S100000x16, .f32⟩
  | .hbm, ⟨6, _⟩ => ⟨S512x16, .f32⟩
  | .hbm, ⟨7, _⟩ => ⟨S16, .f32⟩
  | .hbm, ⟨8, _⟩ => ⟨S16x7, .f32⟩
  | .hbm, ⟨9, _⟩ => ⟨S7, .f32⟩
  | .hbm, ⟨10, _⟩ => ⟨S100000x512, .f32⟩
  | .hbm, ⟨11, _⟩ => ⟨S100000x16, .f32⟩
  | .hbm, ⟨12, _⟩ => ⟨S1x16, .f32⟩
  | .hbm, ⟨13, _⟩ => ⟨S100000x16, .f32⟩
  | .hbm, ⟨14, _⟩ => ⟨S100000x16, .f32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x16, .f32⟩
  | .hbm, ⟨24, _⟩ => ⟨S3200000x1, .f32⟩
  | .hbm, ⟨25, _⟩ => ⟨S3200000x16, .f32⟩
  | .hbm, ⟨26, _⟩ => ⟨S3200000x16, .f32⟩
  | .hbm, ⟨27, _⟩ => ⟨S_, .f32⟩
  | .hbm, ⟨28, _⟩ => ⟨S100000x16, .f32⟩
  | .hbm, ⟨29, _⟩ => ⟨S3200000x1, .i32⟩
  | .hbm, ⟨30, _⟩ => ⟨S100000x16, .f32⟩
  | .hbm, ⟨31, _⟩ => ⟨S_, .f32⟩
  | .hbm, ⟨32, _⟩ => ⟨S100000x16, .f32⟩
  | .hbm, ⟨33, _⟩ => ⟨S100000x16, .f32⟩
  | .hbm, ⟨34, _⟩ => ⟨S100000x16, .f32⟩
  | .hbm, ⟨35, _⟩ => ⟨S100000x7, .f32⟩
  | .hbm, ⟨36, _⟩ => ⟨S1x7, .f32⟩
  | .hbm, ⟨37, _⟩ => ⟨S100000x7, .f32⟩
  | .hbm, ⟨38, _⟩ => ⟨S100000x7, .f32⟩
  | .hbm, ⟨39, _⟩ => ⟨S_, .i32⟩
  | .hbm, ⟨40, _⟩ => ⟨S3200000, .i32⟩
  | .hbm, ⟨41, _⟩ => ⟨S3200000, .i1⟩
  | .hbm, ⟨42, _⟩ => ⟨S_, .i32⟩
  | .hbm, ⟨43, _⟩ => ⟨S3200000, .i32⟩
  | .hbm, ⟨44, _⟩ => ⟨S3200000, .i32⟩
  | .hbm, ⟨45, _⟩ => ⟨S3200000, .i32⟩
  | .hbm, ⟨46, _⟩ => ⟨S3200000x1, .i32⟩
  | .hbm, ⟨47, _⟩ => ⟨S3200000x7, .f32⟩
  | .hbm, ⟨48, _⟩ => ⟨S3200000x1, .f32⟩
  | .hbm, ⟨49, _⟩ => ⟨S3200000x7, .f32⟩
  | .hbm, ⟨50, _⟩ => ⟨S3200000x7, .f32⟩
  | .hbm, ⟨51, _⟩ => ⟨S_, .f32⟩
  | .hbm, ⟨52, _⟩ => ⟨S100000x7, .f32⟩
  | .hbm, ⟨53, _⟩ => ⟨S3200000x1, .i32⟩
  | .hbm, ⟨54, _⟩ => ⟨S100000x7, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_cst : Ref sig .tc := ⟨.hbm, 31, rfl⟩
abbrev main_call0_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_1 : Ref sig .tc := ⟨.hbm, 39, rfl⟩
abbrev main_v24 : Ref sig .tc := ⟨.hbm, 40, rfl⟩
abbrev main_v25 : Ref sig .tc := ⟨.hbm, 41, rfl⟩
abbrev main_c_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  bcast_S3200000x1_S3200000x7_0_1 : S3200000x1.BroadcastsInDim S3200000x7 (![0, 1] : Fin 2 → Fin S3200000x7.rank)
  bcast_S_S100000x7 : S_.BroadcastsInDim S100000x7 (![] : Fin 0 → Fin S100000x7.rank)
  dot_S100000x512_S512x16_S100000x16_1_0_0_1_n_n_wf : DotDims.WF S100000x512 S512x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x7_S100000x7_1_0_0_1_n_n_wf : DotDims.WF S100000x16 S16x7 S100000x7 [1] [0] [0] [1] [] []
  gather_S100000x7_S3200000x1_S3200000x7_1_0_n_n_0_1_17_wf : GatherDims.WF S100000x7 S3200000x1 S3200000x7 [1] [0] [] [0] [] 1 ![1, 7]
  scatter_S100000x7_S3200000x1_S3200000x7_1_0_0_1_wf : ScatterDims.WF S100000x7 S3200000x1 S3200000x7 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3200000x1_S3200000x7_1_0_n_n_0_1_17 : GatherDims S100000x7 S3200000x1 S3200000x7 where
  offsetDims := [1]
  collapsedSliceDims := [0]
  operandBatchingDims := []
  startIndicesBatchingDims := []
  startIndexMap := [0]
  indexVectorDim := 1
  sliceSizes := ![1, 7]
  wf := gather_S100000x7_S3200000x1_S3200000x7_1_0_n_n_0_1_17_wf
def scatter_S100000x7_S3200000x1_S3200000x7_1_0_0_1 : ScatterDims S100000x7 S3200000x1 S3200000x7 where
  updateWindowDims := [1]
  insertedWindowDims := [0]
  scatterDimsToOperandDims := [0]
  indexVectorDim := 1
  wf := scatter_S100000x7_S3200000x1_S3200000x7_1_0_0_1_wf

class Facts : Prop extends Facts₀ where

variable [Facts]
-- ==== Proof.KernelRun.lean ====
/-
  The run of the two-call program, with every buffer named at the end.

  @main is five segments: the reshape of the first bias, the layer-1 call, the first aggregation with the reshape of
  the second bias, the layer-2 call, and the second aggregation. The buffer contents at each boundary are a fold
  through the segments from the launch memory; W5 is the last. Every weakly fair execution terminates, without a
  fault, in a state whose unscoped buffers hold exactly W5: the launch over the segments, each segment entered from
  the contents the previous one leaves, and the last thread state read against the final state. The result buffer
  and the ten arguments are then single reads of W5.
-/
import proofs.«156007_j50869592653866_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The run with the result buffer named and the arguments as launched. -/
theorem run_out : θ_run defs (onTc (τ := τ) (main (F := F))) ⟨m, fun _ => 0, ρ⟩ (fun r => ∀ c : Dev nD,
      r.2.mem ((c.tc : Thread nD τ).loc main_v29) = W5 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v29 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c)⟩)
    (run_all m ρ)

end Cert.KernelIdeal.Run

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.KernelLayers.lean ====
/-
  What one grid point's body computes, entry by entry, on the extended reals.

  Layer 1's body multiplies its block of features by its block of the mask, contracts the product's second axis with
  the weight matrix's first (a matrix product into a zero accumulator, so the accumulator contributes nothing), and
  adds the bias row repeated down the block. Changes of float format are the identity on the extended reals. So
  entry (p, q) of the stored block is the sum over k of (x(p,k) · mask(p,k)) · w(k,q), plus the bias entry q.
  Layer 2's body first clamps its input block at zero from below, entry by entry, and then does the same.
-/
import proofs.«156007_j50869592653866_1_alg».proof.Proof.Gen.KernelIdeal.Skeleton
import proofs.«156007_j50869592653866_1_alg».proof.Proof.LibDotRows
import proofs.«156007_j50869592653866_1_alg».proof.Proof.LibRowBroadcast
import Idealize.ShloMosaic.PureOps.Ideal.Laws
import Idealize.ShloMosaic.Lib.ValueIdx
import Idealize.ShloMosaic.Lib.Pipeline.Value

noncomputable section

namespace Cert.KernelIdeal.Layers

open Cert.KernelIdeal Cert.KernelIdeal.Gen Idealize.ShloMosaic Idealize.ShloMosaic.ValueIdx

/-- Layer 1's stored block at (p, q): the masked row p against column q of the weights, plus the bias entry q. -/
theorem pay1_apply (x0 x1 : Vec Ideal S2000x512 .f32) (x2 : Vec Ideal S512x16 .f32) (x3 : Vec Ideal S1x16 .f32)
    (p : Fin 2000) (q : Fin 16) :
    k0_pay1 (F := Ideal) x0 x1 x2 x3 (ix2 p q)
      = (∑ k : Fin 512, (x0 (ix2 p k) * x1 (ix2 p k)) * x2 (ix2 k q)) + x3 (ix2 (0 : Fin 1) q) := by
  unfold k0_pay1
  have hdot : ∀ (l : S2000x512.Idx → EReal) (r : S512x16.Idx → EReal),
      (∑ c, l (dot_S2000x512_S512x16_S2000x16_1_0_0_1_n_n.lhsIdx (ix2 p q) c) * r (dot_S2000x512_S512x16_S2000x16_1_0_0_1_n_n.rhsIdx (ix2 p q) c))
        = ∑ k : Fin 512, l (ix2 p k) * r (ix2 k q) := by
    intro l r
    dot_rows dot_S2000x512_S512x16_S2000x16_1_0_0_1_n_n S2000x512 S512x16 512
  rw [show ∀ (a b : FVec Ideal S2000x16 .f32) (i : S2000x16.Idx), addf a b i = a i + b i from fun _ _ _ => rfl]
  simp only [matmul]
  rw [Ideal.matmul_constant_zero_apply, shapeCast_self, Cert.RowBroadcast.broadcastTo_1b_ab_apply]
  exact congrArg (· + x3 (ix2 (0 : Fin 1) q)) (hdot (fun i => x0 i * x1 i) x2)

/-- Layer 2's stored block at (p, q): row p clamped at zero from below and masked, against column q of the weights,
    plus the bias entry q. -/
theorem pay2_apply (x0 x1 : Vec Ideal S5000x16 .f32) (x2 : Vec Ideal S16x7 .f32) (x3 : Vec Ideal S1x7 .f32)
    (p : Fin 5000) (q : Fin 7) :
    k1_pay1 (F := Ideal) x0 x1 x2 x3 (ix2 p q)
      = (∑ k : Fin 16, (max (x0 (ix2 p k)) (Ideal.ofBits .f32 0x00000000#32) * x1 (ix2 p k)) * x2 (ix2 k q))
        + x3 (ix2 (0 : Fin 1) q) := by
  unfold k1_pay1
  have hdot : ∀ (l : S5000x16.Idx → EReal) (r : S16x7.Idx → EReal),
      (∑ c, l (dot_S5000x16_S16x7_S5000x7_1_0_0_1_n_n.lhsIdx (ix2 p q) c) * r (dot_S5000x16_S16x7_S5000x7_1_0_0_1_n_n.rhsIdx (ix2 p q) c))
        = ∑ k : Fin 16, l (ix2 p k) * r (ix2 k q) := by
    intro l r
    dot_rows dot_S5000x16_S16x7_S5000x7_1_0_0_1_n_n S5000x16 S16x7 16
  rw [show ∀ (a b : FVec Ideal S5000x7 .f32) (i : S5000x7.Idx), addf a b i = a i + b i from fun _ _ _ => rfl]
  simp only [matmul]
  rw [Ideal.matmul_constant_zero_apply, shapeCast_self, shapeCast_self, Cert.RowBroadcast.broadcastTo_1b_ab_apply]
  exact congrArg (· + x3 (ix2 (0 : Fin 1) q))
    (hdot (fun i => max (x0 i) (Ideal.ofBits .f32 0x00000000#32) * x1 i) x2)

end Cert.KernelIdeal.Layers

end
-- ==== Proof.Spec.lean ====
/-
  The two dense layers as whole-array functions on the extended reals.

  Layer 1 sends node features x (100000 rows of 512), a dropout mask of the same shape, a weight matrix w (512 by 16)
  and a bias row (1 by 16) to the array whose entry (p, q) is the sum over k of (x(p,k) · mask(p,k)) · w(k,q), plus
  the bias entry q. Layer 2 does the same on 16 input and 7 output features after clamping its input at zero from
  below (the rectifier). Each entry of the result depends on ONE row of the left operand, so any tiling of the rows
  computes the same array: that is all the two programs differ in. The zero the rectifier compares with is kept as
  the float word both programs print for it.
-/
import Idealize.ShloMosaic.PureOps.Ideal
import Idealize.ShloMosaic.Lib.ValueIdx

noncomputable section

namespace Cert.Hand

open Idealize.ShloMosaic Idealize.ShloMosaic.ValueIdx

/-- Entry (p, q) of layer 1: the masked row p of x against column q of w, plus the bias entry q. -/
def dense1At (x mask : (⟨2, ![100000, 512]⟩ : Shape).Idx → EReal) (w : (⟨2, ![512, 16]⟩ : Shape).Idx → EReal)
    (brow : (⟨2, ![1, 16]⟩ : Shape).Idx → EReal) (p : Fin 100000) (q : Fin 16) : EReal :=
  (∑ k : Fin 512, (x (ix2 p k) * mask (ix2 p k)) * w (ix2 k q)) + brow (ix2 (0 : Fin 1) q)

/-- Layer 1 as one array. -/
def dense1 (x mask : (⟨2, ![100000, 512]⟩ : Shape).Idx → EReal) (w : (⟨2, ![512, 16]⟩ : Shape).Idx → EReal)
    (brow : (⟨2, ![1, 16]⟩ : Shape).Idx → EReal) : (⟨2, ![100000, 16]⟩ : Shape).Idx → EReal :=
  fun i => dense1At x mask w brow (i 0) (i 1)

/-- Entry (p, q) of layer 2: row p of h clamped at zero from below and masked, against column q of w, plus the bias
    entry q. -/
def dense2At (h mask : (⟨2, ![100000, 16]⟩ : Shape).Idx → EReal) (w : (⟨2, ![16, 7]⟩ : Shape).Idx → EReal)
    (brow : (⟨2, ![1, 7]⟩ : Shape).Idx → EReal) (p : Fin 100000) (q : Fin 7) : EReal :=
  (∑ k : Fin 16, (max (h (ix2 p k)) (Ideal.ofBits .f32 0x00000000#32) * mask (ix2 p k)) * w (ix2 k q))
    + brow (ix2 (0 : Fin 1) q)

/-- Layer 2 as one array. -/
def dense2 (h mask : (⟨2, ![100000, 16]⟩ : Shape).Idx → EReal) (w : (⟨2, ![16, 7]⟩ : Shape).Idx → EReal)
    (brow : (⟨2, ![1, 7]⟩ : Shape).Idx → EReal) : (⟨2, ![100000, 7]⟩ : Shape).Idx → EReal :=
  fun i => dense2At h mask w brow (i 0) (i 1)

end Cert.Hand

end
-- ==== Proof.Region0.lean ====
/-
  Region 0: the array the layer-1 call leaves is the whole-array layer applied to the arrays the call finds.

  The grid has 50 points. Point t fetches rows 2000·t … 2000·t + 1999 of the call's first two operands, the whole weight
  matrix and the whole bias row, and writes back rows 2000·t … 2000·t + 1999 of the result. An entry of the layer depends
  only on its own row of the left operands, so what point t writes back is exactly the layer's rows 2000·t …; the 50
  row blocks are disjoint and together are all 100000 rows, so the result array ends holding the layer everywhere. The
  entry contents V of the call's arrays stay a parameter: which earlier operations produced them does not matter here.
-/
import proofs.«156007_j50869592653866_1_alg».proof.Proof.Gen.KernelIdeal.Frame
import proofs.«156007_j50869592653866_1_alg».proof.Proof.KernelLayers
import proofs.«156007_j50869592653866_1_alg».proof.Proof.Spec
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the 50 grid points: the two row-blocked inputs and the output move with the point along the
    rows, the weight matrix and the bias row stay at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A stored block entry is the layer's entry at any array index whose row the point's input blocks hold: the four
    hypotheses say that row y 0 of the two left blocks is row i 0 of the arrays, and that the weight and bias blocks
    are the whole arrays. -/
theorem pay_block (x0 x1 : Vec Ideal S2000x512 .f32) (x2 : Vec Ideal S512x16 .f32) (x3 : Vec Ideal S1x16 .f32)
    (A0 A1 : S100000x512.Idx → EReal) (A2 : S512x16.Idx → EReal) (A3 : S1x16.Idx → EReal)
    (y : S2000x16.Idx) (i : S100000x16.Idx)
    (e0 : ∀ k : Fin 512, x0 (ix2 (y 0) k) = A0 (ix2 (i 0) k))
    (e1 : ∀ k : Fin 512, x1 (ix2 (y 0) k) = A1 (ix2 (i 0) k))
    (e2 : ∀ k : Fin 512, x2 (ix2 k (y 1)) = A2 (ix2 k (i 1)))
    (e3 : x3 (ix2 (0 : Fin 1) (y 1)) = A3 (ix2 (0 : Fin 1) (i 1))) :
    k0_pay1 (F := Ideal) x0 x1 x2 x3 y = Cert.Hand.dense1 A0 A1 A2 A3 i := by
  obtain ⟨p, q, rfl⟩ : ∃ (p : Fin 2000) (q : Fin 16), y = ix2 p q := ⟨y 0, y 1, eq_ix2 y⟩
  have e0' : ∀ k : Fin 512, x0 (ix2 p k) = A0 (ix2 (i 0) k) := e0
  have e1' : ∀ k : Fin 512, x1 (ix2 p k) = A1 (ix2 (i 0) k) := e1
  have e2' : ∀ k : Fin 512, x2 (ix2 k q) = A2 (ix2 k (i 1)) := e2
  have e3' : x3 (ix2 (0 : Fin 1) q) = A3 (ix2 (0 : Fin 1) (i 1)) := e3
  rw [Cert.KernelIdeal.Layers.pay1_apply]
  unfold Cert.Hand.dense1 Cert.Hand.dense1At
  rw [e3', Finset.sum_congr rfl (fun k _ => by rw [e0' k, e1' k, e2' k])]

/-- What point t writes back is block t of the layer of the arrays as the call finds them. -/
theorem flushed_eq (c : Dev nD) (t : Fin cfg0.N) :
    (dat0 V c).flushed 4 t = ((cfg0.win 4).blk t).view.read (Elt Ideal)
      (Cert.Hand.dense1 (V c main_arg0) (V c main_arg4) (V c main_arg6) (V c main_v0)) := by
  show (cfg0.win 4).cut (grid0.coords t) ((dat0 V c).after 4 t) = _
  rw [after0_4]
  unfold out0_4
  rw [View.canon_unit_zero zero_offsets]
  simp only [View.ld_unit_zero (S := S2000x512) zero_offsets, View.ld_unit_zero (S := S512x16) zero_offsets, View.ld_unit_zero (S := S1x16) zero_offsets]
  obtain ⟨a00, a01, a10, a11, a20, a21, a30, a31, a40, a41⟩ := idx_facts t
  funext j
  show k0_pay1 (F := Ideal) (iblk0 V c 0 t) (iblk0 V c 1 t) (iblk0 V c 2 t) (iblk0 V c 3 t) j
    = Cert.Hand.dense1 (V c main_arg0) (V c main_arg4) (V c main_arg6) (V c main_v0) (((cfg0.win 4).blk t).view.emb j)
  have hj0 : (j 0).val < 2000 := (j 0).isLt
  have hj1 : (j 1).val < 16 := (j 1).isLt
  refine pay_block (iblk0 V c 0 t) (iblk0 V c 1 t) (iblk0 V c 2 t) (iblk0 V c 3 t)
    (V c main_arg0) (V c main_arg4) (V c main_arg6) (V c main_v0) j (((cfg0.win 4).blk t).view.emb j) ?_ ?_ ?_ ?_
  · intro k
    show V c main_arg0 (((cfg0.win 0).blk t).view.emb (ix2 (j 0) k)) = V c main_arg0 (ix2 ((((cfg0.win 4).blk t).view.emb j) 0) k)
    refine congrArg (V c main_arg0) (funext fun a => Fin.ext ?_)
    match a with
    | ⟨0, _⟩ => show win0_0.index t (0 : Fin 2) * 2000 + 1 * (j 0).val = win0_4.index t (0 : Fin 2) * 2000 + 1 * (j 0).val; omega
    | ⟨1, _⟩ => show win0_0.index t (1 : Fin 2) * 512 + 1 * k.val = k.val; omega
  · intro k
    show V c main_arg4 (((cfg0.win 1).blk t).view.emb (ix2 (j 0) k)) = V c main_arg4 (ix2 ((((cfg0.win 4).blk t).view.emb j) 0) k)
    refine congrArg (V c main_arg4) (funext fun a => Fin.ext ?_)
    match a with
    | ⟨0, _⟩ => show win0_1.index t (0 : Fin 2) * 2000 + 1 * (j 0).val = win0_4.index t (0 : Fin 2) * 2000 + 1 * (j 0).val; omega
    | ⟨1, _⟩ => show win0_1.index t (1 : Fin 2) * 512 + 1 * k.val = k.val; omega
  · intro k
    show V c main_arg6 (((cfg0.win 2).blk t).view.emb (ix2 k (j 1))) = V c main_arg6 (ix2 k ((((cfg0.win 4).blk t).view.emb j) 1))
    refine congrArg (V c main_arg6) (funext fun a => Fin.ext ?_)
    match a with
    | ⟨0, _⟩ => show win0_2.index t (0 : Fin 2) * 512 + 1 * k.val = k.val; omega
    | ⟨1, _⟩ => show win0_2.index t (1 : Fin 2) * 16 + 1 * (j 1).val = win0_4.index t (1 : Fin 2) * 16 + 1 * (j 1).val; omega
  · show V c main_v0 (((cfg0.win 3).blk t).view.emb (ix2 (0 : Fin 1) (j 1))) = V c main_v0 (ix2 (0 : Fin 1) ((((cfg0.win 4).blk t).view.emb j) 1))
    refine congrArg (V c main_v0) (funext fun a => Fin.ext ?_)
    match a with
    | ⟨0, _⟩ => show win0_3.index t (0 : Fin 2) * 1 + 1 * 0 = 0; omega
    | ⟨1, _⟩ => show win0_3.index t (1 : Fin 2) * 16 + 1 * (j 1).val = win0_4.index t (1 : Fin 2) * 16 + 1 * (j 1).val; omega

/-- An index of the result array is in point t's block iff each coordinate is in the block's range on its axis. -/
theorem mem_blk (t : Fin cfg0.N) (i : S100000x16.Idx) :
    i ∈ ((cfg0.win 4).blk t).view.set ↔ ∀ a : Fin 2, win0_4.index t a * S2000x16.size a ≤ (i a).val ∧ (i a).val < win0_4.index t a * S2000x16.size a + S2000x16.size a := by
  show i ∈ ((View.whole main_v1).slice (win0_4.rect t)).set ↔ _
  rw [View.set_slice_whole, Rect.mem_set_unit]
  exact Iff.rfl

/-- Every row of the result is some point's: row r is in the block of point r / 2000. -/
theorem cover (i : S100000x16.Idx) : ∃ t : Fin cfg0.N, (cfg0.win 4).flush t = true ∧ i ∈ ((cfg0.win 4).blk t).view.set := by
  have hi0 : (i 0).val < 100000 := (i 0).isLt
  have hi1 : (i 1).val < 16 := (i 1).isLt
  have hN : cfg0.N = 50 := N_0
  refine ⟨⟨(i 0).val / 2000, by rw [hN]; omega⟩, flush0_4 _, ?_⟩
  rw [mem_blk]
  obtain ⟨-, -, -, -, -, -, -, -, a40, a41⟩ := idx_facts ⟨(i 0).val / 2000, by rw [hN]; omega⟩
  intro a
  match a with
  | ⟨0, _⟩ =>
    show win0_4.index ⟨(i 0).val / 2000, _⟩ (0 : Fin 2) * 2000 ≤ (i 0).val ∧ (i 0).val < win0_4.index ⟨(i 0).val / 2000, _⟩ (0 : Fin 2) * 2000 + 2000
    rw [a40]
    show (i 0).val / 2000 * 2000 ≤ (i 0).val ∧ (i 0).val < (i 0).val / 2000 * 2000 + 2000
    omega
  | ⟨1, _⟩ =>
    show win0_4.index ⟨(i 0).val / 2000, _⟩ (1 : Fin 2) * 16 ≤ (i 1).val ∧ (i 1).val < win0_4.index ⟨(i 0).val / 2000, _⟩ (1 : Fin 2) * 16 + 16
    rw [a41]
    omega

/-- The result array after the call: the layer of the arrays as the call finds them. -/
theorem final (c : Dev nD) :
    (dat0 V c).arrAt 4 cfg0.N = Cert.Hand.dense1 (V c main_arg0) (V c main_arg4) (V c main_arg6) (V c main_v0) :=
  (dat0 V c).arrAt_eq_of_cover 4 _ (fun t _ => flushed_eq V c t) (cover)

end Cert.KernelIdeal.Region0

end
-- ==== Proof.Region1.lean ====
/-
  Region 1: the array the layer-2 call leaves is the whole-array layer applied to the arrays the call finds.

  The grid has 20 points. Point t fetches rows 5000·t … 5000·t + 4999 of the call's first two operands, the whole weight
  matrix and the whole bias row, and writes back rows 5000·t … 5000·t + 4999 of the result. An entry of the layer depends
  only on its own row of the left operands, so what point t writes back is exactly the layer's rows 5000·t …; the 20
  row blocks are disjoint and together are all 100000 rows, so the result array ends holding the layer everywhere. The
  entry contents V of the call's arrays stay a parameter: which earlier operations produced them does not matter here.
-/
import proofs.«156007_j50869592653866_1_alg».proof.Proof.Gen.KernelIdeal.Frame
import proofs.«156007_j50869592653866_1_alg».proof.Proof.KernelLayers
import proofs.«156007_j50869592653866_1_alg».proof.Proof.Spec
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the 20 grid points: the two row-blocked inputs and the output move with the point along the
    rows, the weight matrix and the bias row stay at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- A stored block entry is the layer's entry at any array index whose row the point's input blocks hold: the four
    hypotheses say that row y 0 of the two left blocks is row i 0 of the arrays, and that the weight and bias blocks
    are the whole arrays. -/
theorem pay_block (x0 x1 : Vec Ideal S5000x16 .f32) (x2 : Vec Ideal S16x7 .f32) (x3 : Vec Ideal S1x7 .f32)
    (A0 A1 : S100000x16.Idx → EReal) (A2 : S16x7.Idx → EReal) (A3 : S1x7.Idx → EReal)
    (y : S5000x7.Idx) (i : S100000x7.Idx)
    (e0 : ∀ k : Fin 16, x0 (ix2 (y 0) k) = A0 (ix2 (i 0) k))
    (e1 : ∀ k : Fin 16, x1 (ix2 (y 0) k) = A1 (ix2 (i 0) k))
    (e2 : ∀ k : Fin 16, x2 (ix2 k (y 1)) = A2 (ix2 k (i 1)))
    (e3 : x3 (ix2 (0 : Fin 1) (y 1)) = A3 (ix2 (0 : Fin 1) (i 1))) :
    k1_pay1 (F := Ideal) x0 x1 x2 x3 y = Cert.Hand.dense2 A0 A1 A2 A3 i := by
  obtain ⟨p, q, rfl⟩ : ∃ (p : Fin 5000) (q : Fin 7), y = ix2 p q := ⟨y 0, y 1, eq_ix2 y⟩
  have e0' : ∀ k : Fin 16, x0 (ix2 p k) = A0 (ix2 (i 0) k) := e0
  have e1' : ∀ k : Fin 16, x1 (ix2 p k) = A1 (ix2 (i 0) k) := e1
  have e2' : ∀ k : Fin 16, x2 (ix2 k q) = A2 (ix2 k (i 1)) := e2
  have e3' : x3 (ix2 (0 : Fin 1) q) = A3 (ix2 (0 : Fin 1) (i 1)) := e3
  rw [Cert.KernelIdeal.Layers.pay2_apply]
  unfold Cert.Hand.dense2 Cert.Hand.dense2At
  rw [e3', Finset.sum_congr rfl (fun k _ => by rw [e0' k, e1' k, e2' k])]

/-- What point t writes back is block t of the layer of the arrays as the call finds them. -/
theorem flushed_eq (c : Dev nD) (t : Fin cfg1.N) :
    (dat1 V c).flushed 4 t = ((cfg1.win 4).blk t).view.read (Elt Ideal)
      (Cert.Hand.dense2 (V c main_v14) (V c main_arg5) (V c main_arg8) (V c main_v15)) := by
  show (cfg1.win 4).cut (grid1.coords t) ((dat1 V c).after 4 t) = _
  rw [after1_4]
  unfold out1_4
  rw [View.canon_unit_zero zero_offsets]
  simp only [View.ld_unit_zero (S := S5000x16) zero_offsets, View.ld_unit_zero (S := S16x7) zero_offsets, View.ld_unit_zero (S := S1x7) zero_offsets]
  obtain ⟨a00, a01, a10, a11, a20, a21, a30, a31, a40, a41⟩ := idx_facts t
  funext j
  show k1_pay1 (F := Ideal) (iblk1 V c 0 t) (iblk1 V c 1 t) (iblk1 V c 2 t) (iblk1 V c 3 t) j
    = Cert.Hand.dense2 (V c main_v14) (V c main_arg5) (V c main_arg8) (V c main_v15) (((cfg1.win 4).blk t).view.emb j)
  have hj0 : (j 0).val < 5000 := (j 0).isLt
  have hj1 : (j 1).val < 7 := (j 1).isLt
  refine pay_block (iblk1 V c 0 t) (iblk1 V c 1 t) (iblk1 V c 2 t) (iblk1 V c 3 t)
    (V c main_v14) (V c main_arg5) (V c main_arg8) (V c main_v15) j (((cfg1.win 4).blk t).view.emb j) ?_ ?_ ?_ ?_
  · intro k
    show V c main_v14 (((cfg1.win 0).blk t).view.emb (ix2 (j 0) k)) = V c main_v14 (ix2 ((((cfg1.win 4).blk t).view.emb j) 0) k)
    refine congrArg (V c main_v14) (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 16 + 1 * k.val = k.val; omega
  · intro k
    show V c main_arg5 (((cfg1.win 1).blk t).view.emb (ix2 (j 0) k)) = V c main_arg5 (ix2 ((((cfg1.win 4).blk t).view.emb j) 0) k)
    refine congrArg (V c main_arg5) (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 16 + 1 * k.val = k.val; omega
  · intro k
    show V c main_arg8 (((cfg1.win 2).blk t).view.emb (ix2 k (j 1))) = V c main_arg8 (ix2 k ((((cfg1.win 4).blk t).view.emb j) 1))
    refine congrArg (V c main_arg8) (funext fun a => Fin.ext ?_)
    match a with
    | ⟨0, _⟩ => show win1_2.index t (0 : Fin 2) * 16 + 1 * k.val = k.val; omega
    | ⟨1, _⟩ => show win1_2.index t (1 : Fin 2) * 7 + 1 * (j 1).val = win1_4.index t (1 : Fin 2) * 7 + 1 * (j 1).val; omega
  · show V c main_v15 (((cfg1.win 3).blk t).view.emb (ix2 (0 : Fin 1) (j 1))) = V c main_v15 (ix2 (0 : Fin 1) ((((cfg1.win 4).blk t).view.emb j) 1))
    refine congrArg (V c main_v15) (funext fun a => Fin.ext ?_)
    match a with
    | ⟨0, _⟩ => show win1_3.index t (0 : Fin 2) * 1 + 1 * 0 = 0; omega
    | ⟨1, _⟩ => show win1_3.index t (1 : Fin 2) * 7 + 1 * (j 1).val = win1_4.index t (1 : Fin 2) * 7 + 1 * (j 1).val; omega

/-- An index of the result array is in point t's block iff each coordinate is in the block's range on its axis. -/
theorem mem_blk (t : Fin cfg1.N) (i : S100000x7.Idx) :
    i ∈ ((cfg1.win 4).blk t).view.set ↔ ∀ a : Fin 2, win1_4.index t a * S5000x7.size a ≤ (i a).val ∧ (i a).val < win1_4.index t a * S5000x7.size a + S5000x7.size a := by
  show i ∈ ((View.whole main_v16).slice (win1_4.rect t)).set ↔ _
  rw [View.set_slice_whole, Rect.mem_set_unit]
  exact Iff.rfl

/-- Every row of the result is some point's: row r is in the block of point r / 5000. -/
theorem cover (i : S100000x7.Idx) : ∃ t : Fin cfg1.N, (cfg1.win 4).flush t = true ∧ i ∈ ((cfg1.win 4).blk t).view.set := by
  have hi0 : (i 0).val < 100000 := (i 0).isLt
  have hi1 : (i 1).val < 7 := (i 1).isLt
  have hN : cfg1.N = 20 := N_1
  refine ⟨⟨(i 0).val / 5000, by rw [hN]; omega⟩, flush1_4 _, ?_⟩
  rw [mem_blk]
  obtain ⟨-, -, -, -, -, -, -, -, a40, a41⟩ := idx_facts ⟨(i 0).val / 5000, by rw [hN]; omega⟩
  intro a
  match a with
  | ⟨0, _⟩ =>
    show win1_4.index ⟨(i 0).val / 5000, _⟩ (0 : Fin 2) * 5000 ≤ (i 0).val ∧ (i 0).val < win1_4.index ⟨(i 0).val / 5000, _⟩ (0 : Fin 2) * 5000 + 5000
    rw [a40]
    show (i 0).val / 5000 * 5000 ≤ (i 0).val ∧ (i 0).val < (i 0).val / 5000 * 5000 + 5000
    omega
  | ⟨1, _⟩ =>
    show win1_4.index ⟨(i 0).val / 5000, _⟩ (1 : Fin 2) * 7 ≤ (i 1).val ∧ (i 1).val < win1_4.index ⟨(i 0).val / 5000, _⟩ (1 : Fin 2) * 7 + 7
    rw [a41]
    omega

/-- The result array after the call: the layer of the arrays as the call finds them. -/
theorem final (c : Dev nD) :
    (dat1 V c).arrAt 4 cfg1.N = Cert.Hand.dense2 (V c main_v14) (V c main_arg5) (V c main_arg8) (V c main_v15) :=
  (dat1 V c).arrAt_eq_of_cover 4 _ (fun t _ => flushed_eq V c t) (cover)

end Cert.KernelIdeal.Region1

end
-- ==== Proof.KernelValue.lean ====
/-
  What the two-call program leaves in its result buffer, as one function of the ten argument arrays.

  The buffer contents at the five segment boundaries are a fold from the launch memory. Read backwards from the
  result: the last stretch aggregates the layer-2 call's result over the edges; that result is the whole-array layer 2
  of the arrays the call finds (Region 1), which are the first aggregation's result, the second mask, the second
  weight matrix and the second bias read as a row; the first aggregation is over the layer-1 call's result, the
  whole-array layer 1 (Region 0) of features, first mask, first weights and the first bias read as a row. No stretch
  and no call writes an argument array, so at every boundary an argument buffer still holds what it was launched with.
  The aggregation — wrap a negative source index, gather the rows, scale by the edge weights, add into the
  destination rows from zero — is named once per feature count and never opened.
-/
import proofs.«156007_j50869592653866_1_alg».proof.Proof.Gen.KernelIdeal.Frame
import proofs.«156007_j50869592653866_1_alg».proof.Proof.KernelRun
import proofs.«156007_j50869592653866_1_alg».proof.Proof.Region0
import proofs.«156007_j50869592653866_1_alg».proof.Proof.Region1
import proofs.«156007_j50869592653866_1_alg».proof.Proof.Spec
import Idealize.ShloMosaic.Lib.StableHlo.Run
import Idealize.ShloMosaic.PureOps.Ideal

set_option maxRecDepth 16384

noncomputable section

namespace Cert.KernelIdeal.Value

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The aggregation over the edges on 16 features: rows of h gathered at the source nodes (a negative index counted from
    the end), each scaled by its edge's weight, and added into the destination nodes' rows starting from zero. -/
def spmm16 (src dst : (⟨S3200000, .i32⟩ : BufTy).Contents (Elt Ideal)) (wt : (⟨S3200000, .f32⟩ : BufTy).Contents (Elt Ideal))
    (h : (⟨S100000x16, .f32⟩ : BufTy).Contents (Elt Ideal)) : (⟨S100000x16, .f32⟩ : BufTy).Contents (Elt Ideal) :=
  Host.scatterAdd (F := Ideal) scatter_S100000x16_S3200000x1_S3200000x16_1_0_0_1
    (broadcastInDim S100000x16 ![] bcast_S_S100000x16 (constant (F := Ideal) S_ .f32 0x00000000#32))
    (broadcastInDim S3200000x1 ![0] bcast_S3200000_S3200000x1_0 dst)
    (mulf (Host.gather gather_S100000x16_S3200000x1_S3200000x16_1_0_n_n_0_1_116 h
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src)))
      (broadcastInDim S3200000x16 ![0, 1] bcast_S3200000x1_S3200000x16_0_1
        (broadcastInDim S3200000x1 ![0] bcast_S3200000_S3200000x1_0 wt)))

/-- The same aggregation on 7 features. -/
def spmm7 (src dst : (⟨S3200000, .i32⟩ : BufTy).Contents (Elt Ideal)) (wt : (⟨S3200000, .f32⟩ : BufTy).Contents (Elt Ideal))
    (h : (⟨S100000x7, .f32⟩ : BufTy).Contents (Elt Ideal)) : (⟨S100000x7, .f32⟩ : BufTy).Contents (Elt Ideal) :=
  Host.scatterAdd (F := Ideal) scatter_S100000x7_S3200000x1_S3200000x7_1_0_0_1
    (broadcastInDim S100000x7 ![] bcast_S_S100000x7 (constant (F := Ideal) S_ .f32 0x00000000#32))
    (broadcastInDim S3200000x1 ![0] bcast_S3200000_S3200000x1_0 dst)
    (mulf (Host.gather gather_S100000x7_S3200000x1_S3200000x7_1_0_n_n_0_1_17 h
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src)))
      (broadcastInDim S3200000x7 ![0, 1] bcast_S3200000x1_S3200000x7_0_1
        (broadcastInDim S3200000x1 ![0] bcast_S3200000_S3200000x1_0 wt)))

/-! ## After the first bias's reshape (the layer-1 call's entry) -/

theorem W1_arg0 (c : Dev nD) : W1 m ρ c (Proc.devRef .tc main_arg0) = m ((c.tc : Thread nD τ).loc main_arg0) := by
  show StableHlo.after hostOps0 (W0 m ρ c) (Proc.devRef .tc main_arg0) = _
  after_results <;> rfl
theorem W1_arg1 (c : Dev nD) : W1 m ρ c (Proc.devRef .tc main_arg1) = m ((c.tc : Thread nD τ).loc main_arg1) := by
  show StableHlo.after hostOps0 (W0 m ρ c) (Proc.devRef .tc main_arg1) = _
  after_results <;> rfl
theorem W1_arg2 (c : Dev nD) : W1 m ρ c (Proc.devRef .tc main_arg2) = m ((c.tc : Thread nD τ).loc main_arg2) := by
  show StableHlo.after hostOps0 (W0 m ρ c) (Proc.devRef .tc main_arg2) = _
  after_results <;> rfl
theorem W1_arg3 (c : Dev nD) : W1 m ρ c (Proc.devRef .tc main_arg3) = m ((c.tc : Thread nD τ).loc main_arg3) := by
  show StableHlo.after hostOps0 (W0 m ρ c) (Proc.devRef .tc main_arg3) = _
  after_results <;> rfl
theorem W1_arg4 (c : Dev nD) : W1 m ρ c (Proc.devRef .tc main_arg4) = m ((c.tc : Thread nD τ).loc main_arg4) := by
  show StableHlo.after hostOps0 (W0 m ρ c) (Proc.devRef .tc main_arg4) = _
  after_results <;> rfl
theorem W1_arg5 (c : Dev nD) : W1 m ρ c (Proc.devRef .tc main_arg5) = m ((c.tc : Thread nD τ).loc main_arg5) := by
  show StableHlo.after hostOps0 (W0 m ρ c) (Proc.devRef .tc main_arg5) = _
  after_results <;> rfl
theorem W1_arg6 (c : Dev nD) : W1 m ρ c (Proc.devRef .tc main_arg6) = m ((c.tc : Thread nD τ).loc main_arg6) := by
  show StableHlo.after hostOps0 (W0 m ρ c) (Proc.devRef .tc main_arg6) = _
  after_results <;> rfl
theorem W1_arg8 (c : Dev nD) : W1 m ρ c (Proc.devRef .tc main_arg8) = m ((c.tc : Thread nD τ).loc main_arg8) := by
  show StableHlo.after hostOps0 (W0 m ρ c) (Proc.devRef .tc main_arg8) = _
  after_results <;> rfl
theorem W1_arg9 (c : Dev nD) : W1 m ρ c (Proc.devRef .tc main_arg9) = m ((c.tc : Thread nD τ).loc main_arg9) := by
  show StableHlo.after hostOps0 (W0 m ρ c) (Proc.devRef .tc main_arg9) = _
  after_results <;> rfl

/-- The first bias read as a row. -/
theorem W1_v0 (c : Dev nD) : W1 m ρ c (Proc.devRef .tc main_v0) = shapeCast S1x16 (m ((c.tc : Thread nD τ).loc main_arg7)) shapeCasts_S16_S1x16 := by
  show StableHlo.after hostOps0 (W0 m ρ c) (Proc.devRef .tc main_v0) = _
  after_results <;> rfl

/-! ## After the layer-1 call -/

theorem W2_arg1 (c : Dev nD) : W2 m ρ c (Proc.devRef .tc main_arg1) = m ((c.tc : Thread nD τ).loc main_arg1) :=
  (W2_of_ne m ρ c main_arg1 (by decide)).trans (W1_arg1 m ρ c)
theorem W2_arg2 (c : Dev nD) : W2 m ρ c (Proc.devRef .tc main_arg2) = m ((c.tc : Thread nD τ).loc main_arg2) :=
  (W2_of_ne m ρ c main_arg2 (by decide)).trans (W1_arg2 m ρ c)
theorem W2_arg3 (c : Dev nD) : W2 m ρ c (Proc.devRef .tc main_arg3) = m ((c.tc : Thread nD τ).loc main_arg3) :=
  (W2_of_ne m ρ c main_arg3 (by decide)).trans (W1_arg3 m ρ c)
theorem W2_arg5 (c : Dev nD) : W2 m ρ c (Proc.devRef .tc main_arg5) = m ((c.tc : Thread nD τ).loc main_arg5) :=
  (W2_of_ne m ρ c main_arg5 (by decide)).trans (W1_arg5 m ρ c)
theorem W2_arg8 (c : Dev nD) : W2 m ρ c (Proc.devRef .tc main_arg8) = m ((c.tc : Thread nD τ).loc main_arg8) :=
  (W2_of_ne m ρ c main_arg8 (by decide)).trans (W1_arg8 m ρ c)
theorem W2_arg9 (c : Dev nD) : W2 m ρ c (Proc.devRef .tc main_arg9) = m ((c.tc : Thread nD τ).loc main_arg9) :=
  (W2_of_ne m ρ c main_arg9 (by decide)).trans (W1_arg9 m ρ c)

/-- The layer-1 call's result: the whole-array layer 1 of the arguments. -/
theorem W2_v1 (c : Dev nD) : W2 m ρ c (Proc.devRef .tc main_v1) = (Cert.Hand.dense1 (m ((c.tc : Thread nD τ).loc main_arg0)) (m ((c.tc : Thread nD τ).loc main_arg4)) (m ((c.tc : Thread nD τ).loc main_arg6)) (shapeCast S1x16 (m ((c.tc : Thread nD τ).loc main_arg7)) shapeCasts_S16_S1x16)) := by
  have h : W2 m ρ c (Proc.devRef .tc main_v1)
      = Cert.Hand.dense1 (V1 m ρ c main_arg0) (V1 m ρ c main_arg4) (V1 m ρ c main_arg6) (V1 m ρ c main_v0) :=
    (W2_arr m ρ c 4).trans (Cert.KernelIdeal.Region0.final (V1 m ρ) c)
  rw [h]
  show Cert.Hand.dense1 (W1 m ρ c (Proc.devRef .tc main_arg0)) (W1 m ρ c (Proc.devRef .tc main_arg4)) (W1 m ρ c (Proc.devRef .tc main_arg6)) (W1 m ρ c (Proc.devRef .tc main_v0)) = _
  rw [W1_arg0, W1_arg4, W1_arg6, W1_v0]

/-! ## After the first aggregation and the second bias's reshape (the layer-2 call's entry) -/

theorem W3_arg1 (c : Dev nD) : W3 m ρ c (Proc.devRef .tc main_arg1) = m ((c.tc : Thread nD τ).loc main_arg1) := by
  have h : StableHlo.after hostOps1 (W2 m ρ c) (Proc.devRef .tc main_arg1) = W2 m ρ c (Proc.devRef .tc main_arg1) := by
    generalize W2 m ρ c = w2
    after_results <;> rfl
  exact h.trans (W2_arg1 m ρ c)
theorem W3_arg2 (c : Dev nD) : W3 m ρ c (Proc.devRef .tc main_arg2) = m ((c.tc : Thread nD τ).loc main_arg2) := by
  have h : StableHlo.after hostOps1 (W2 m ρ c) (Proc.devRef .tc main_arg2) = W2 m ρ c (Proc.devRef .tc main_arg2) := by
    generalize W2 m ρ c = w2
    after_results <;> rfl
  exact h.trans (W2_arg2 m ρ c)
theorem W3_arg3 (c : Dev nD) : W3 m ρ c (Proc.devRef .tc main_arg3) = m ((c.tc : Thread nD τ).loc main_arg3) := by
  have h : StableHlo.after hostOps1 (W2 m ρ c) (Proc.devRef .tc main_arg3) = W2 m ρ c (Proc.devRef .tc main_arg3) := by
    generalize W2 m ρ c = w2
    after_results <;> rfl
  exact h.trans (W2_arg3 m ρ c)
theorem W3_arg5 (c : Dev nD) : W3 m ρ c (Proc.devRef .tc main_arg5) = m ((c.tc : Thread nD τ).loc main_arg5) := by
  have h : StableHlo.after hostOps1 (W2 m ρ c) (Proc.devRef .tc main_arg5) = W2 m ρ c (Proc.devRef .tc main_arg5) := by
    generalize W2 m ρ c = w2
    after_results <;> rfl
  exact h.trans (W2_arg5 m ρ c)
theorem W3_arg8 (c : Dev nD) : W3 m ρ c (Proc.devRef .tc main_arg8) = m ((c.tc : Thread nD τ).loc main_arg8) := by
  have h : StableHlo.after hostOps1 (W2 m ρ c) (Proc.devRef .tc main_arg8) = W2 m ρ c (Proc.devRef .tc main_arg8) := by
    generalize W2 m ρ c = w2
    after_results <;> rfl
  exact h.trans (W2_arg8 m ρ c)

/-- The first aggregation, of the layer-1 result. -/
theorem W3_v14 (c : Dev nD) : W3 m ρ c (Proc.devRef .tc main_v14) = (spmm16 (m ((c.tc : Thread nD τ).loc main_arg1)) (m ((c.tc : Thread nD τ).loc main_arg2)) (m ((c.tc : Thread nD τ).loc main_arg3)) (Cert.Hand.dense1 (m ((c.tc : Thread nD τ).loc main_arg0)) (m ((c.tc : Thread nD τ).loc main_arg4)) (m ((c.tc : Thread nD τ).loc main_arg6)) (shapeCast S1x16 (m ((c.tc : Thread nD τ).loc main_arg7)) shapeCasts_S16_S1x16))) := by
  have h : StableHlo.after hostOps1 (W2 m ρ c) (Proc.devRef .tc main_v14)
      = spmm16 (W2 m ρ c (Proc.devRef .tc main_arg1)) (W2 m ρ c (Proc.devRef .tc main_arg2)) (W2 m ρ c (Proc.devRef .tc main_arg3)) (W2 m ρ c (Proc.devRef .tc main_v1)) := by
    generalize W2 m ρ c = w2
    after_results
    rfl
  show StableHlo.after hostOps1 (W2 m ρ c) (Proc.devRef .tc main_v14) = _
  rw [h, W2_arg1, W2_arg2, W2_arg3, W2_v1]

/-- The second bias read as a row. -/
theorem W3_v15 (c : Dev nD) : W3 m ρ c (Proc.devRef .tc main_v15) = shapeCast S1x7 (m ((c.tc : Thread nD τ).loc main_arg9)) shapeCasts_S7_S1x7 := by
  have h : StableHlo.after hostOps1 (W2 m ρ c) (Proc.devRef .tc main_v15) = shapeCast S1x7 (W2 m ρ c (Proc.devRef .tc main_arg9)) shapeCasts_S7_S1x7 := by
    generalize W2 m ρ c = w2
    after_results <;> rfl
  show StableHlo.after hostOps1 (W2 m ρ c) (Proc.devRef .tc main_v15) = _
  rw [h, W2_arg9]

/-! ## After the layer-2 call -/

theorem W4_arg1 (c : Dev nD) : W4 m ρ c (Proc.devRef .tc main_arg1) = m ((c.tc : Thread nD τ).loc main_arg1) :=
  (W4_of_ne m ρ c main_arg1 (by decide)).trans (W3_arg1 m ρ c)
theorem W4_arg2 (c : Dev nD) : W4 m ρ c (Proc.devRef .tc main_arg2) = m ((c.tc : Thread nD τ).loc main_arg2) :=
  (W4_of_ne m ρ c main_arg2 (by decide)).trans (W3_arg2 m ρ c)
theorem W4_arg3 (c : Dev nD) : W4 m ρ c (Proc.devRef .tc main_arg3) = m ((c.tc : Thread nD τ).loc main_arg3) :=
  (W4_of_ne m ρ c main_arg3 (by decide)).trans (W3_arg3 m ρ c)

/-- The layer-2 call's result: the whole-array layer 2 of the first aggregation and the arguments. -/
theorem W4_v16 (c : Dev nD) : W4 m ρ c (Proc.devRef .tc main_v16) = (Cert.Hand.dense2 (spmm16 (m ((c.tc : Thread nD τ).loc main_arg1)) (m ((c.tc : Thread nD τ).loc main_arg2)) (m ((c.tc : Thread nD τ).loc main_arg3)) (Cert.Hand.dense1 (m ((c.tc : Thread nD τ).loc main_arg0)) (m ((c.tc : Thread nD τ).loc main_arg4)) (m ((c.tc : Thread nD τ).loc main_arg6)) (shapeCast S1x16 (m ((c.tc : Thread nD τ).loc main_arg7)) shapeCasts_S16_S1x16))) (m ((c.tc : Thread nD τ).loc main_arg5)) (m ((c.tc : Thread nD τ).loc main_arg8)) (shapeCast S1x7 (m ((c.tc : Thread nD τ).loc main_arg9)) shapeCasts_S7_S1x7)) := by
  have h : W4 m ρ c (Proc.devRef .tc main_v16)
      = Cert.Hand.dense2 (V3 m ρ c main_v14) (V3 m ρ c main_arg5) (V3 m ρ c main_arg8) (V3 m ρ c main_v15) :=
    (W4_arr m ρ c 4).trans (Cert.KernelIdeal.Region1.final (V3 m ρ) c)
  rw [h]
  show Cert.Hand.dense2 (W3 m ρ c (Proc.devRef .tc main_v14)) (W3 m ρ c (Proc.devRef .tc main_arg5)) (W3 m ρ c (Proc.devRef .tc main_arg8)) (W3 m ρ c (Proc.devRef .tc main_v15)) = _
  rw [W3_v14, W3_arg5, W3_arg8, W3_v15]

/-! ## The result -/

/-- The result buffer at the end: the second aggregation of layer 2 of the first aggregation of layer 1. -/
theorem out_eq (c : Dev nD) :
    W5 m ρ c (Proc.devRef .tc main_v29) = spmm7 (m ((c.tc : Thread nD τ).loc main_arg1)) (m ((c.tc : Thread nD τ).loc main_arg2)) (m ((c.tc : Thread nD τ).loc main_arg3)) (Cert.Hand.dense2 (spmm16 (m ((c.tc : Thread nD τ).loc main_arg1)) (m ((c.tc : Thread nD τ).loc main_arg2)) (m ((c.tc : Thread nD τ).loc main_arg3)) (Cert.Hand.dense1 (m ((c.tc : Thread nD τ).loc main_arg0)) (m ((c.tc : Thread nD τ).loc main_arg4)) (m ((c.tc : Thread nD τ).loc main_arg6)) (shapeCast S1x16 (m ((c.tc : Thread nD τ).loc main_arg7)) shapeCasts_S16_S1x16))) (m ((c.tc : Thread nD τ).loc main_arg5)) (m ((c.tc : Thread nD τ).loc main_arg8)) (shapeCast S1x7 (m ((c.tc : Thread nD τ).loc main_arg9)) shapeCasts_S7_S1x7)) := by
  have h : StableHlo.after hostOps2 (W4 m ρ c) (Proc.devRef .tc main_v29)
      = spmm7 (W4 m ρ c (Proc.devRef .tc main_arg1)) (W4 m ρ c (Proc.devRef .tc main_arg2)) (W4 m ρ c (Proc.devRef .tc main_arg3)) (W4 m ρ c (Proc.devRef .tc main_v16)) := by
    generalize W4 m ρ c = w4
    after_results
    rfl
  show StableHlo.after hostOps2 (W4 m ρ c) (Proc.devRef .tc main_v29) = _
  rw [h, W4_arg1, W4_arg2, W4_arg3, W4_v16]

/-- The run, with the result buffer at that function of the arguments and the arguments as launched. -/
theorem run : θ_run defs (onTc (τ := τ) (main (F := Ideal))) ⟨m, fun _ => 0, ρ⟩ (fun r => ∀ c : Dev nD,
      r.2.mem ((c.tc : Thread nD τ).loc main_v29) = spmm7 (m ((c.tc : Thread nD τ).loc main_arg1)) (m ((c.tc : Thread nD τ).loc main_arg2)) (m ((c.tc : Thread nD τ).loc main_arg3)) (Cert.Hand.dense2 (spmm16 (m ((c.tc : Thread nD τ).loc main_arg1)) (m ((c.tc : Thread nD τ).loc main_arg2)) (m ((c.tc : Thread nD τ).loc main_arg3)) (Cert.Hand.dense1 (m ((c.tc : Thread nD τ).loc main_arg0)) (m ((c.tc : Thread nD τ).loc main_arg4)) (m ((c.tc : Thread nD τ).loc main_arg6)) (shapeCast S1x16 (m ((c.tc : Thread nD τ).loc main_arg7)) shapeCasts_S16_S1x16))) (m ((c.tc : Thread nD τ).loc main_arg5)) (m ((c.tc : Thread nD τ).loc main_arg8)) (shapeCast S1x7 (m ((c.tc : Thread nD τ).loc main_arg9)) shapeCasts_S7_S1x7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (out_eq m ρ c), (h c).2⟩) (Cert.KernelIdeal.Run.run_out m ρ)

end Cert.KernelIdeal.Value

end
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.RefLayers.lean ====
/-
  The reference's two dense layers are the whole-array layers.

  The reference multiplies features by mask over the whole arrays, contracts with the weights by one host matrix
  product, and adds the bias broadcast first to a row and then down all rows. Entry (p, q) of that is the sum over k
  of (x(p,k) · mask(p,k)) · w(k,q), plus bias entry q — the whole-array layer, whose bias row is the bias vector
  read as a row (the cast keeps the entries in order). Layer 2 is the same after the rectifier, a maximum with a zero
  broadcast to every entry.
-/
import proofs.«156007_j50869592653866_1_alg».proof.Proof.Gen.ReferenceIdeal
import proofs.«156007_j50869592653866_1_alg».proof.Proof.Spec
import proofs.«156007_j50869592653866_1_alg».proof.Proof.LibDotRows
import proofs.«156007_j50869592653866_1_alg».proof.Proof.LibRowCast
import Idealize.ShloMosaic.PureOps.Ideal.Laws
import Idealize.ShloMosaic.Lib.ValueIdx
import Idealize.ShloMosaic.Lib.Pipeline.Value

noncomputable section

namespace Cert.ReferenceIdeal.Layers

open Cert.ReferenceIdeal Cert.ReferenceIdeal.Gen Idealize.ShloMosaic Idealize.ShloMosaic.ValueIdx

/-- The reference's first dense layer is the whole-array layer 1 with the bias vector read as a row. -/
theorem layer1_eq (x m : FVec Ideal S100000x512 .f32) (w : FVec Ideal S512x16 .f32) (b : FVec Ideal S16 .f32)
    (h : S16.ShapeCasts S1x16) :
    addf (Host.dotGeneral dot_S100000x512_S512x16_S100000x16_1_0_0_1_n_n none (mulf x m) w)
      (broadcastInDim S100000x16 ![0, 1] bcast_S1x16_S100000x16_0_1 (broadcastInDim S1x16 ![1] bcast_S16_S1x16_1 b))
    = Cert.Hand.dense1 x m w (shapeCast S1x16 b h) := by
  funext i
  obtain ⟨p, q, rfl⟩ : ∃ (p : Fin 100000) (q : Fin 16), i = ix2 p q := ⟨i 0, i 1, eq_ix2 i⟩
  have hdot : ∀ (l : S100000x512.Idx → EReal) (r : S512x16.Idx → EReal),
      (∑ c, l (dot_S100000x512_S512x16_S100000x16_1_0_0_1_n_n.lhsIdx (ix2 p q) c) * r (dot_S100000x512_S512x16_S100000x16_1_0_0_1_n_n.rhsIdx (ix2 p q) c))
        = ∑ k : Fin 512, l (ix2 p k) * r (ix2 k q) := by
    intro l r
    dot_rows dot_S100000x512_S512x16_S100000x16_1_0_0_1_n_n S100000x512 S512x16 512
  rw [show ∀ (a b : FVec Ideal S100000x16 .f32) (i : S100000x16.Idx), addf a b i = a i + b i from fun _ _ _ => rfl]
  simp only [Host.dotGeneral]
  rw [Ideal.dotGeneral_apply,
    broadcastInDim_apply ![0, 1] bcast_S1x16_S100000x16_0_1 _ (ix2 p q) (ix2 (0 : Fin 1) q) (fun a => match a with
      | ⟨0, _⟩ => by show 0 = if (1 : Nat) = 1 then 0 else p.val; rw [if_pos rfl]
      | ⟨1, _⟩ => by show q.val = if (16 : Nat) = 1 then 0 else q.val; rw [if_neg (by decide)]),
    broadcastInDim_apply ![1] bcast_S16_S1x16_1 b (ix2 (0 : Fin 1) q) (ix1 q) (fun a => match a with
      | ⟨0, _⟩ => by show q.val = if (16 : Nat) = 1 then 0 else q.val; rw [if_neg (by decide)])]
  show _ = Cert.Hand.dense1At x m w (shapeCast S1x16 b h) p q
  unfold Cert.Hand.dense1At
  rw [Cert.RowCast.shapeCast_row_apply]
  exact congrArg (· + b (ix1 q)) (hdot (fun i => x i * m i) w)

/-- The reference's rectifier followed by its second dense layer is the whole-array layer 2 with the bias vector read
    as a row. -/
theorem layer2_eq (g m : FVec Ideal S100000x16 .f32) (w : FVec Ideal S16x7 .f32) (b : FVec Ideal S7 .f32)
    (h : S7.ShapeCasts S1x7) :
    addf (Host.dotGeneral dot_S100000x16_S16x7_S100000x7_1_0_0_1_n_n none
        (mulf (maximumf g (broadcastInDim S100000x16 ![] bcast_S_S100000x16 (constant S_ .f32 0x00000000#32))) m) w)
      (broadcastInDim S100000x7 ![0, 1] bcast_S1x7_S100000x7_0_1 (broadcastInDim S1x7 ![1] bcast_S7_S1x7_1 b))
    = Cert.Hand.dense2 g m w (shapeCast S1x7 b h) := by
  funext i
  obtain ⟨p, q, rfl⟩ : ∃ (p : Fin 100000) (q : Fin 7), i = ix2 p q := ⟨i 0, i 1, eq_ix2 i⟩
  have hdot : ∀ (l : S100000x16.Idx → EReal) (r : S16x7.Idx → EReal),
      (∑ c, l (dot_S100000x16_S16x7_S100000x7_1_0_0_1_n_n.lhsIdx (ix2 p q) c) * r (dot_S100000x16_S16x7_S100000x7_1_0_0_1_n_n.rhsIdx (ix2 p q) c))
        = ∑ k : Fin 16, l (ix2 p k) * r (ix2 k q) := by
    intro l r
    dot_rows dot_S100000x16_S16x7_S100000x7_1_0_0_1_n_n S100000x16 S16x7 16
  rw [show ∀ (a b : FVec Ideal S100000x7 .f32) (i : S100000x7.Idx), addf a b i = a i + b i from fun _ _ _ => rfl]
  simp only [Host.dotGeneral]
  rw [Ideal.dotGeneral_apply,
    broadcastInDim_apply ![0, 1] bcast_S1x7_S100000x7_0_1 _ (ix2 p q) (ix2 (0 : Fin 1) q) (fun a => match a with
      | ⟨0, _⟩ => by show 0 = if (1 : Nat) = 1 then 0 else p.val; rw [if_pos rfl]
      | ⟨1, _⟩ => by show q.val = if (7 : Nat) = 1 then 0 else q.val; rw [if_neg (by decide)]),
    broadcastInDim_apply ![1] bcast_S7_S1x7_1 b (ix2 (0 : Fin 1) q) (ix1 q) (fun a => match a with
      | ⟨0, _⟩ => by show q.val = if (7 : Nat) = 1 then 0 else q.val; rw [if_neg (by decide)])]
  show _ = Cert.Hand.dense2At g m w (shapeCast S1x7 b h) p q
  unfold Cert.Hand.dense2At
  rw [Cert.RowCast.shapeCast_row_apply]
  exact congrArg (· + b (ix1 q)) (hdot (fun i => max (g i) (Ideal.ofBits .f32 0x00000000#32) * m i) w)

end Cert.ReferenceIdeal.Layers

end
-- ==== Proof.Bridge.lean ====
/-
  The reference's result is the kernel program's result, as functions of the ten argument arrays.

  The reference computes layer 1 over the whole arrays, aggregates over the edges, applies the rectifier and layer 2,
  and aggregates again. Its two dense layers are the whole-array layers (RefLayers), and the kernel program's result
  is the second aggregation of the whole-array layer 2 of the first aggregation of the whole-array layer 1
  (KernelValue). The two aggregations are the same operations with the same dimension records in both programs, so
  once the layers are rewritten the two sides are one term.
-/
import proofs.«156007_j50869592653866_1_alg».proof.Proof.RefLayers
import proofs.«156007_j50869592653866_1_alg».proof.Proof.KernelValue

set_option maxRecDepth 16384

noncomputable section

namespace Cert.Bridge

open Cert.ReferenceIdeal Cert.ReferenceIdeal.Gen Idealize.ShloMosaic

/-- The reference's result term is the kernel program's, for any ten argument arrays. -/
theorem ref_eq (a0 a4 : FVec Ideal S100000x512 .f32) (a1 a2 : (⟨S3200000, .i32⟩ : BufTy).Contents (Elt Ideal)) (a3 : FVec Ideal S3200000 .f32)
    (a5 : FVec Ideal S100000x16 .f32) (a6 : FVec Ideal S512x16 .f32) (a7 : FVec Ideal S16 .f32)
    (a8 : FVec Ideal S16x7 .f32) (a9 : FVec Ideal S7 .f32) :
    Host.scatterAdd (F := Ideal) scatter_S100000x7_S3200000x1_S3200000x7_1_0_0_1 (broadcastInDim S100000x7 ![] bcast_S_S100000x7 (constant (F := Ideal) S_ .f32 0x00000000#32)) (broadcastInDim S3200000x1 ![0] bcast_S3200000_S3200000x1_0 a2) (mulf (Host.gather gather_S100000x7_S3200000x1_S3200000x7_1_0_n_n_0_1_17 (addf (Host.dotGeneral (F := Ideal) dot_S100000x16_S16x7_S100000x7_1_0_0_1_n_n none (mulf (maximumf (Host.scatterAdd (F := Ideal) scatter_S100000x16_S3200000x1_S3200000x16_1_0_0_1 (broadcastInDim S100000x16 ![] bcast_S_S100000x16 (constant (F := Ideal) S_ .f32 0x00000000#32)) (broadcastInDim S3200000x1 ![0] bcast_S3200000_S3200000x1_0 a2) (mulf (Host.gather gather_S100000x16_S3200000x1_S3200000x16_1_0_n_n_0_1_116 (addf (Host.dotGeneral (F := Ideal) dot_S100000x512_S512x16_S100000x16_1_0_0_1_n_n none (mulf a0 a4) a6) (broadcastInDim S100000x16 ![0, 1] bcast_S1x16_S100000x16_0_1 (broadcastInDim S1x16 ![1] bcast_S16_S1x16_1 a7))) (broadcastInDim S3200000x1 ![0] bcast_S3200000_S3200000x1_0 (select (cmpi .slt a1 (broadcastInDim S3200000 ![] bcast_S_S3200000 (constantI S_ 32 0#32))) (addi a1 (broadcastInDim S3200000 ![] bcast_S_S3200000 (constantI S_ 32 100000#32))) a1))) (broadcastInDim S3200000x16 ![0, 1] bcast_S3200000x1_S3200000x16_0_1 (broadcastInDim S3200000x1 ![0] bcast_S3200000_S3200000x1_0 a3)))) (broadcastInDim S100000x16 ![] bcast_S_S100000x16 (constant (F := Ideal) S_ .f32 0x00000000#32))) a5) a8) (broadcastInDim S100000x7 ![0, 1] bcast_S1x7_S100000x7_0_1 (broadcastInDim S1x7 ![1] bcast_S7_S1x7_1 a9))) (broadcastInDim S3200000x1 ![0] bcast_S3200000_S3200000x1_0 (select (cmpi .slt a1 (broadcastInDim S3200000 ![] bcast_S_S3200000 (constantI S_ 32 0#32))) (addi a1 (broadcastInDim S3200000 ![] bcast_S_S3200000 (constantI S_ 32 100000#32))) a1))) (broadcastInDim S3200000x7 ![0, 1] bcast_S3200000x1_S3200000x7_0_1 (broadcastInDim S3200000x1 ![0] bcast_S3200000_S3200000x1_0 a3)))
    = Cert.KernelIdeal.Value.spmm7 a1 a2 a3
        (Cert.Hand.dense2
          (Cert.KernelIdeal.Value.spmm16 a1 a2 a3 (Cert.Hand.dense1 a0 a4 a6 (shapeCast Cert.KernelIdeal.S1x16 a7 Cert.KernelIdeal.Facts₀.shapeCasts_S16_S1x16)))
          a5 a8 (shapeCast Cert.KernelIdeal.S1x7 a9 Cert.KernelIdeal.Facts₀.shapeCasts_S7_S1x7)) := by
  rw [Cert.ReferenceIdeal.Layers.layer1_eq a0 a4 a6 a7 Cert.KernelIdeal.Facts₀.shapeCasts_S16_S1x16]
  rw [Cert.ReferenceIdeal.Layers.layer2_eq _ a5 a8 a9 Cert.KernelIdeal.Facts₀.shapeCasts_S7_S1x7]
  rfl

end Cert.Bridge

end
-- ==== Proof.lean ====
/-
  A two-layer graph convolution: the kernel program against its reference, on the extended reals.

  Both programs compute, from node features x, two dropout masks, two weight matrices, two biases and a weighted
  edge list, out = A · layer2(relu(A · layer1(x))), where layer1(x) = (x · mask1) W1 + b1, layer2(h) = (h · mask2) W2 + b2
  and A · h adds, into each edge's destination row, the edge's source row of h scaled by the edge's weight. The
  reference evaluates each layer over all 100000 rows at once. The kernel program evaluates layer 1 in 50 blocks of
  2000 rows and layer 2 (with the rectifier fused in front) in 20 blocks of 5000 rows, each block by a matrix product
  into a zero accumulator on operands rounded to a shorter float format. On the extended reals the rounding is the
  identity, the zero accumulator adds nothing, and an entry of a layer depends on its own row only, so the blocks
  assemble to the same arrays; the two aggregations are the same host operations in both programs and are carried as
  one unopened function. Finiteness of the inputs is never used.

  The kernel program's result as a function of its arguments is Proof/KernelValue.lean (over Region0, Region1,
  KernelLayers and the run of Proof/KernelRun.lean); the reference's layers are Proof/RefLayers.lean; that the two
  results are one term is Proof/Bridge.lean. The frames of the two kernel programs and the reference's run are the
  generated modules'; the idealization rewrote no operation, so there is nothing to preserve.
-/
import proofs.«156007_j50869592653866_1_alg».proof.Defs
import proofs.«156007_j50869592653866_1_alg».proof.Proof.Gen.Kernel
import proofs.«156007_j50869592653866_1_alg».proof.Proof.Gen.Kernel.Skeleton
import proofs.«156007_j50869592653866_1_alg».proof.Proof.Gen.Kernel.Launch
import proofs.«156007_j50869592653866_1_alg».proof.Proof.Gen.Kernel.Points
import proofs.«156007_j50869592653866_1_alg».proof.Proof.Gen.Kernel.Frame
import proofs.«156007_j50869592653866_1_alg».proof.Proof.Gen.KernelIdeal
import proofs.«156007_j50869592653866_1_alg».proof.Proof.Gen.KernelIdeal.Skeleton
import proofs.«156007_j50869592653866_1_alg».proof.Proof.Gen.KernelIdeal.Launch
import proofs.«156007_j50869592653866_1_alg».proof.Proof.Gen.KernelIdeal.Points
import proofs.«156007_j50869592653866_1_alg».proof.Proof.Gen.KernelIdeal.Frame
import proofs.«156007_j50869592653866_1_alg».proof.Proof.Gen.ReferenceIdeal
import proofs.«156007_j50869592653866_1_alg».proof.Proof.Gen.ReferenceIdeal.Run
import proofs.«156007_j50869592653866_1_alg».proof.Proof.Gen.Pre_finite_inputs
import proofs.«156007_j50869592653866_1_alg».proof.Proof.KernelValue
import proofs.«156007_j50869592653866_1_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the ten arguments both programs run, and end with the same result array: the kernel
    program's result is a function of its arguments (its run), the reference's result is the reference's term of its
    own arguments (its run), the arguments agree, and the two functions are one. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [e0, e1, e2, e3, e4, e5, e6, e7, e8, e9]
  exact Cert.Bridge.ref_eq _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
